-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S64x768 : Shape := ⟨2, ![64, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S32768x768 .f32) (main_arg1 : FVec F S64x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  main_v8
-- ==== Kernel.lean ====
abbrev S32768x768 : Shape := ⟨2, ![32768, 768]⟩
abbrev S64x768 : Shape := ⟨2, ![64, 768]⟩
abbrev S32768x64 : Shape := ⟨2, ![32768, 64]⟩
abbrev S1024x768 : Shape := ⟨2, ![1024, 768]⟩
abbrev S4096x64 : Shape := ⟨2, ![4096, 64]⟩
abbrev S1024x64 : Shape := ⟨2, ![1024, 64]⟩

abbrev nBuf : Space → Nat
  | .hbm => 3
  | .vmem => 11
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S32768x64, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | .local _ .vmem, ⟨8, _⟩ => ⟨S64x768, .f32⟩
  | .local _ .vmem, ⟨9, _⟩ => ⟨S4096x64, .f32⟩
  | .local _ .vmem, ⟨10, _⟩ => ⟨S4096x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S64x768_S64x768_0_0 : ∀ a, (![0, 0] : Fin 2 → Nat) a + S64x768.size a ≤ S64x768.size a
  h_S64x768 : 0 < S64x768.numel
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  inb_S4096x64_S1024x64_0_0 : ∀ a, (![0, 0] : Fin 2 → Nat) a + S1024x64.size a ≤ S4096x64.size a
  h_S1024x64 : 0 < S1024x64.numel
  inb_S4096x64_S1024x64_1024_0 : ∀ a, (![1024, 0] : Fin 2 → Nat) a + S1024x64.size a ≤ S4096x64.size a
  inb_S4096x64_S1024x64_2048_0 : ∀ a, (![2048, 0] : Fin 2 → Nat) a + S1024x64.size a ≤ S4096x64.size a
  inb_S4096x64_S1024x64_3072_0 : ∀ a, (![3072, 0] : Fin 2 → Nat) a + S1024x64.size a ≤ S4096x64.size a
  dot_S1024x768_S64x768_S1024x64_1_1_0_0_n_n_wf : DotDims.WF S1024x768 S64x768 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S32768x768.size a
  hwx0_1 : ∀ i : grid0.Coords, EltTy.bits .f32 = 32 ∨ (Rect.block (s := S32768x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S32768x768.size a
  hwx0_2 : ∀ i : grid0.Coords, EltTy.bits .f32 = 32 ∨ (Rect.block (s := S32768x768) S1024x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S32768x768.size a
  hwx0_3 : ∀ i : grid0.Coords, EltTy.bits .f32 = 32 ∨ (Rect.block (s := S32768x768) S1024x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x768.size a ≤ S64x768.size a
  hwx0_4 : ∀ i : grid0.Coords, EltTy.bits .f32 = 32 ∨ (Rect.block (s := S64x768) S64x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S32768x64.size a
  hwx0_5 : ∀ i : grid0.Coords, EltTy.bits .f32 = 32 ∨ (Rect.block (s := S32768x64) S4096x64.size (cc0_transform_5 i) (hinb0_5 i)).WholeWords (EltTy.packing .f32)

variable [Facts₀]

def dot_S1024x768_S64x768_S1024x64_1_1_0_0_n_n : DotDims S1024x768 S64x768 S1024x64 where
  lhsContracting := [1]
  rhsContracting := [1]
  lhsNonContracting := [0]
  rhsNonContracting := [0]
  lhsBatch := []
  rhsBatch := []
  wf := dot_S1024x768_S64x768_S1024x64_1_1_0_0_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x768 : Shape := ⟨2, ![32768, 768]⟩
abbrev S64x768 : Shape := ⟨2, ![64, 768]⟩
abbrev S768x64 : Shape := ⟨2, ![768, 64]⟩
abbrev S32768x64 : Shape := ⟨2, ![32768, 64]⟩

abbrev nBuf : Space → Nat
  | .hbm => 4
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S768x64, .f32⟩
  | .hbm, ⟨3, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S64x768_S768x64_1_0 : S64x768.Transposes [1, 0] S768x64
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.OutBlockBits.lean ====
import proofs.«168203_g4501125726438_cont_8to1_c_902_3_alg».proof.Proof.Gen.Kernel.Skeleton
import Idealize.ShloMosaic.Lib.Pipeline.FrameBody

noncomputable section

/-! # What one grid step leaves in the output block

One grid step holds four consecutive 1024-row blocks `x₀ … x₃` of the activations and the whole weight
matrix `w`.  It stores `xₛ · wᵀ` into rows `1024·s … 1024·s + 1023` of the step's 4096-row output block,
for `s = 0, 1, 2, 3`.  The four row bands are disjoint and together fill the block, so the block after the
step is the overlay of the four products, each in its own band. -/

namespace Cert.Kernel.Body

open Idealize.ShloMosaic Idealize.SL.Sem
open Cert.Kernel Cert.Kernel.Gen

variable {F : FTy → Type} [FloatOps F]

/-- A whole 1024 × 768 block of activations. -/
abbrev rX : Rect S1024x768 := Rect.unit (s := S1024x768) ![0, 0] S1024x768.size inb_S1024x768_S1024x768_0_0
/-- The whole 64 × 768 weight matrix. -/
abbrev rW : Rect S64x768 := Rect.unit (s := S64x768) ![0, 0] S64x768.size inb_S64x768_S64x768_0_0
/-- Rows 0 … 1023 of the output block. -/
abbrev rO0 : Rect S4096x64 := Rect.unit (s := S4096x64) ![0, 0] S1024x64.size inb_S4096x64_S1024x64_0_0
/-- Rows 1024 … 2047 of the output block. -/
abbrev rO1 : Rect S4096x64 := Rect.unit (s := S4096x64) ![1024, 0] S1024x64.size inb_S4096x64_S1024x64_1024_0
/-- Rows 2048 … 3071 of the output block. -/
abbrev rO2 : Rect S4096x64 := Rect.unit (s := S4096x64) ![2048, 0] S1024x64.size inb_S4096x64_S1024x64_2048_0
/-- Rows 3072 … 4095 of the output block. -/
abbrev rO3 : Rect S4096x64 := Rect.unit (s := S4096x64) ![3072, 0] S1024x64.size inb_S4096x64_S1024x64_3072_0

/-- The output block after one grid step, from the weight matrix and the four activation blocks: the four
    products laid into their row bands (the latest store first). -/
def outBlock (w : Vec F S64x768 .f32) (x0 x1 x2 x3 : Vec F S1024x768 .f32) : Vec F S4096x64 .f32 :=
  View.canon [⟨rO3, k0_pay5 (View.ld w rW) (View.ld x3 rX)⟩, ⟨rO2, k0_pay4 (View.ld w rW) (View.ld x2 rX)⟩,
    ⟨rO1, k0_pay3 (View.ld w rW) (View.ld x1 rX)⟩, ⟨rO0, k0_pay2 (View.ld w rW) (View.ld x0 rX)⟩]

end Cert.Kernel.Body

end
-- ==== Proof.StepBits.lean ====
import proofs.«168203_g4501125726438_cont_8to1_c_902_3_alg».proof.Proof.Gen.Kernel.Launch
import proofs.«168203_g4501125726438_cont_8to1_c_902_3_alg».proof.Proof.Gen.Kernel.Skeleton
import proofs.«168203_g4501125726438_cont_8to1_c_902_3_alg».proof.Proof.Gen.Kernel.Points
import proofs.«168203_g4501125726438_cont_8to1_c_902_3_alg».proof.Proof.OutBlockBits
import Idealize.ShloMosaic.Lib.Pipeline.FrameBody
import Idealize.ShloMosaic.Lib.Ring
import Idealize.ShloMosaic.Lib.Tactic

set_option maxRecDepth 16384

noncomputable section

/-! # One grid step

A grid step is handed five read-only staging buffers — four consecutive 1024-row blocks of the activations
and the weight matrix — and one 4096-row output buffer.  It reads the five, and overwrites the output
buffer band by band with the four products; it touches nothing else.  So whatever the output buffer held
before, afterwards it holds `outBlock` of the five inputs, and the inputs are as they were. -/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The four row bands tile the output block, so the four stores cover it. -/
theorem bands_cover (p0 p1 p2 p3 : Vec F S1024x64 .f32) (y : S4096x64.Idx) :
    ∃ pc ∈ ([⟨rO3, p3⟩, ⟨rO2, p2⟩, ⟨rO1, p1⟩, ⟨rO0, p0⟩] : List (View.Piece (Elt F) S4096x64 .f32)), y ∈ pc.1.set :=
  View.cover_of_tiled [⟨rO3, p3⟩, ⟨rO2, p2⟩, ⟨rO1, p1⟩, ⟨rO0, p0⟩] S1024x64.size (by rfl) y

set_option maxHeartbeats 1000000 in
/-- The step's body, run on whole staging buffers: the five inputs at read contents `x0 … x3`, `w`, the output at
    anything.  It ends with the inputs unchanged and the output at `outBlock w x0 x1 x2 x3`. -/
theorem step_triple (c : Dev nD) (E : Set ℕ) (i : grid0.Coords)
    (arg1 : Memref sig .tc .vmem S1024x768 .f32) (harg1 : arg1.IsWhole) (arg2 : Memref sig .tc .vmem S1024x768 .f32) (harg2 : arg2.IsWhole)
    (arg3 : Memref sig .tc .vmem S1024x768 .f32) (harg3 : arg3.IsWhole) (arg4 : Memref sig .tc .vmem S1024x768 .f32) (harg4 : arg4.IsWhole)
    (arg5 : Memref sig .tc .vmem S64x768 .f32) (harg5 : arg5.IsWhole) (arg6 : Memref sig .tc .vmem S4096x64 .f32) (harg6 : arg6.IsWhole)
    (x0 x1 x2 x3 : Vec F S1024x768 .f32) (w : Vec F S64x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w
            ∗ owns (c : Thread nD τ) arg6 fullShare (outBlock w x0 x1 x2 x3)) -∗ K ⟨⟩))
      ⊢ wp frame (wpE (defs₀ (F := F)) Variants.none c none) E (cc0__router_kernel i arg1 harg1 arg2 harg2 arg3 harg3 arg4 harg4 arg5 harg5 arg6 harg6) K := by
  simp only [cc0__router_kernel_eq_skeleton]; unfold cc0__router_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (bands_cover _ _ _ _)

end Cert.Kernel.Body

end
-- ==== Proof.RunBits.lean ====
import proofs.«168203_g4501125726438_cont_8to1_c_902_3_alg».proof.Proof.StepBits

set_option maxRecDepth 16384

noncomputable section

/-! # The run of the whole grid

The program is one pipelined call over a grid of 8 steps.  Four of its windows look at ONE array, the
activations, each at its own quarter of the step's rows; a fifth holds the weight matrix, a sixth is the output.
The activations are only read, so the array's ownership is dealt to the four windows as four quarter shares,
and comes back whole at the end.  Every step's body is the triple of `Step`; what the body finds in an input
buffer is that window's block at the step, fetched there or carried over.  The conclusion names every array
after the run as the write-backs' overlay of the entry contents (`Dat.arrAt`). -/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the call is entered, and the windows' blocks -/

/-- The buffers of core `c` when the call is entered: as launched (the program is the call alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at step `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds that block at every step, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- Per core: the arrays as the call finds them; after step `t` each input buffer at its block and the output buffer
    at `outBlock` of the five input blocks; between steps nothing but the core's other scoped buffers; the
    activations held at a quarter share by each of their four windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 4 t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 4 t) (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic step -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (step_triple c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## Dealing the activations to their four windows -/

/-- A buffer held whole is held at four quarter shares. -/
theorem quarters {ℓ : Loc nD τ sig} (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨HLL, HLR⟩
  icases HR with ⟨HRL, HRR⟩
  isplitl [HLL]; · iexact HLL
  isplitl [HLR]; · iexact HLR
  isplitl [HRL]; · iexact HRL
  iexact HRR

end Cert.Kernel.Body

end
-- ==== Proof.GridBits.lean ====
import proofs.«168203_g4501125726438_cont_8to1_c_902_3_alg».proof.Proof.RunBits

set_option maxRecDepth 16384

noncomputable section

/-! # Launching the grid

The call's three arrays — activations, weights, result — are all of the core's unscoped buffers.  Entering the
call, the activations' buffer is dealt in quarters to the four windows that read it, the other two go whole to
their windows; the launch theorem for windows that may share an array then runs the grid from the body
obligation, and gives every array back at the overlay of its write-backs. -/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows' arrays are the program's three arrays. -/
theorem arrRefs_eq : Finset.univ.image (Pipeline.arrRef spec0) = [main_arg0, main_arg1, main_v0].toFinset := by decide

/-- The distinct buffers behind the windows' arrays, each held whole: the three arrays one by one. -/
theorem arrBufs_eq (c : Dev nD) : (Pipeline.arrBufs spec0 c (V m c) : sProp 𝕄)
    = iprop(((c.tc : Thread nD τ).loc main_arg0 ↦{fullShare} V m c main_arg0) ∗ ((c.tc : Thread nD τ).loc main_arg1 ↦{fullShare} V m c main_arg1)
        ∗ ((c.tc : Thread nD τ).loc main_v0 ↦{fullShare} V m c main_v0)) := by
  unfold Pipeline.arrBufs
  exact bigSep_eq_bigSepL_of_eq [main_arg0, main_arg1, main_v0] arrRefs_eq (by decide) _

/-- The three arrays, each held whole, are the six windows' arrays at their shares: the activations in quarters. -/
theorem deal (c : Dev nD) :
    (Pipeline.arrBufs spec0 c (V m c) : sProp 𝕄) ⊢ (dats m 0 c).arrays ((dats m 0 c).arrAt · 0) := by
  rw [arrBufs_eq]
  unfold Dat.arrays
  rw [bigSep_W0]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  simp only [h0, h1, h2, h3, h4, h5]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl]
  iintro ⟨Hx, Hw, Ho⟩
  ihave Hx := (quarters (F := F) _) $$ Hx
  icases Hx with ⟨H0, H1, H2, H3⟩
  isplitl [H0]; · iexact H0
  isplitl [H1]; · iexact H1
  isplitl [H2]; · iexact H2
  isplitl [H3]; · iexact H3
  isplitl [Hw]; · iexact Hw
  iexact Ho

/-- Between steps the core holds nothing the steps name: its other scoped buffers. -/
theorem Φ_eq (c : Dev nD) (t : Fin (cfg0.N + 1)) :
    (dats m 0 c).Φ t = Pipeline.scopedRest (Ix := Unit) (Name := ℕ) (U := UR sig nD τ) (Lvl := ℕ) (Val := Elt F) spec0 c := rfl

set_option backward.isDefEq.respectTransparency.types false in
/-- From any memory with zero counters, every weakly fair execution of the program terminates, and in every final
    state each window's array holds the overlay of the write-backs on its entry contents. -/
theorem run_grid : θ_run defs (onTc (τ := τ) (main (F := F))) (s₀ m ρ)
    (fun r => ∀ c : Dev nD, ∀ w : Fin cfg0.W,
      r.2.mem ((spec0 w).arr.view.loc (c.tc : Thread nD τ)) = (dats m 0 c).arrAt w cfg0.N) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := deal m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Φ_eq]; iintro ⟨-, H⟩; iexact H)
    (hout := fun c => by rw [Φ_eq]; iintro H; isplitr; · iempintro
                         iexact H)
    (QY := fun _ _ => True)
    (hY := fun c s' => by iintro ⟨-, -, HSI⟩; imodintro; isplitr; · ipureintro; trivial
                          iexact HSI)
    (hQ := fun s h c w => (h c).1 w)

/-- The frame: the program runs to the end, nothing faults, and both argument arrays end as they began — an input
    window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (((dats m 0 c).arrAt_in 0 rfl _).trans (A_eq m c 0)),
      (h c 4).trans (((dats m 0 c).arrAt_in 4 rfl _).trans (A_eq m c 4))⟩) (run_grid m ρ)

end Cert.Kernel.Body

end
-- ==== Proof.OutBlock.lean ====
import proofs.«168203_g4501125726438_cont_8to1_c_902_3_alg».proof.Proof.Gen.KernelIdeal.Skeleton
import Idealize.ShloMosaic.Lib.Pipeline.FrameBody

noncomputable section

/-! # What one grid step leaves in the output block

One grid step holds four consecutive 1024-row blocks `x₀ … x₃` of the activations and the whole weight
matrix `w`.  It stores `xₛ · wᵀ` into rows `1024·s … 1024·s + 1023` of the step's 4096-row output block,
for `s = 0, 1, 2, 3`.  The four row bands are disjoint and together fill the block, so the block after the
step is the overlay of the four products, each in its own band. -/

namespace Cert.KernelIdeal.Body

open Idealize.ShloMosaic Idealize.SL.Sem
open Cert.KernelIdeal Cert.KernelIdeal.Gen

variable {F : FTy → Type} [FloatOps F]

/-- A whole 1024 × 768 block of activations. -/
abbrev rX : Rect S1024x768 := Rect.unit (s := S1024x768) ![0, 0] S1024x768.size inb_S1024x768_S1024x768_0_0
/-- The whole 64 × 768 weight matrix. -/
abbrev rW : Rect S64x768 := Rect.unit (s := S64x768) ![0, 0] S64x768.size inb_S64x768_S64x768_0_0
/-- Rows 0 … 1023 of the output block. -/
abbrev rO0 : Rect S4096x64 := Rect.unit (s := S4096x64) ![0, 0] S1024x64.size inb_S4096x64_S1024x64_0_0
/-- Rows 1024 … 2047 of the output block. -/
abbrev rO1 : Rect S4096x64 := Rect.unit (s := S4096x64) ![1024, 0] S1024x64.size inb_S4096x64_S1024x64_1024_0
/-- Rows 2048 … 3071 of the output block. -/
abbrev rO2 : Rect S4096x64 := Rect.unit (s := S4096x64) ![2048, 0] S1024x64.size inb_S4096x64_S1024x64_2048_0
/-- Rows 3072 … 4095 of the output block. -/
abbrev rO3 : Rect S4096x64 := Rect.unit (s := S4096x64) ![3072, 0] S1024x64.size inb_S4096x64_S1024x64_3072_0

/-- The output block after one grid step, from the weight matrix and the four activation blocks: the four
    products laid into their row bands (the latest store first). -/
def outBlock (w : Vec F S64x768 .f32) (x0 x1 x2 x3 : Vec F S1024x768 .f32) : Vec F S4096x64 .f32 :=
  View.canon [⟨rO3, k0_pay5 (View.ld w rW) (View.ld x3 rX)⟩, ⟨rO2, k0_pay4 (View.ld w rW) (View.ld x2 rX)⟩,
    ⟨rO1, k0_pay3 (View.ld w rW) (View.ld x1 rX)⟩, ⟨rO0, k0_pay2 (View.ld w rW) (View.ld x0 rX)⟩]

end Cert.KernelIdeal.Body

end
-- ==== Proof.Step.lean ====
import proofs.«168203_g4501125726438_cont_8to1_c_902_3_alg».proof.Proof.Gen.KernelIdeal.Launch
import proofs.«168203_g4501125726438_cont_8to1_c_902_3_alg».proof.Proof.Gen.KernelIdeal.Skeleton
import proofs.«168203_g4501125726438_cont_8to1_c_902_3_alg».proof.Proof.Gen.KernelIdeal.Points
import proofs.«168203_g4501125726438_cont_8to1_c_902_3_alg».proof.Proof.OutBlock
import Idealize.ShloMosaic.Lib.Pipeline.FrameBody
import Idealize.ShloMosaic.Lib.Ring
import Idealize.ShloMosaic.Lib.Tactic

set_option maxRecDepth 16384

noncomputable section

/-! # One grid step

A grid step is handed five read-only staging buffers — four consecutive 1024-row blocks of the activations
and the weight matrix — and one 4096-row output buffer.  It reads the five, and overwrites the output
buffer band by band with the four products; it touches nothing else.  So whatever the output buffer held
before, afterwards it holds `outBlock` of the five inputs, and the inputs are as they were. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The four row bands tile the output block, so the four stores cover it. -/
theorem bands_cover (p0 p1 p2 p3 : Vec F S1024x64 .f32) (y : S4096x64.Idx) :
    ∃ pc ∈ ([⟨rO3, p3⟩, ⟨rO2, p2⟩, ⟨rO1, p1⟩, ⟨rO0, p0⟩] : List (View.Piece (Elt F) S4096x64 .f32)), y ∈ pc.1.set :=
  View.cover_of_tiled [⟨rO3, p3⟩, ⟨rO2, p2⟩, ⟨rO1, p1⟩, ⟨rO0, p0⟩] S1024x64.size (by rfl) y

set_option maxHeartbeats 1000000 in
/-- The step's body, run on whole staging buffers: the five inputs at read contents `x0 … x3`, `w`, the output at
    anything.  It ends with the inputs unchanged and the output at `outBlock w x0 x1 x2 x3`. -/
theorem step_triple (c : Dev nD) (E : Set ℕ) (i : grid0.Coords)
    (arg1 : Memref sig .tc .vmem S1024x768 .f32) (harg1 : arg1.IsWhole) (arg2 : Memref sig .tc .vmem S1024x768 .f32) (harg2 : arg2.IsWhole)
    (arg3 : Memref sig .tc .vmem S1024x768 .f32) (harg3 : arg3.IsWhole) (arg4 : Memref sig .tc .vmem S1024x768 .f32) (harg4 : arg4.IsWhole)
    (arg5 : Memref sig .tc .vmem S64x768 .f32) (harg5 : arg5.IsWhole) (arg6 : Memref sig .tc .vmem S4096x64 .f32) (harg6 : arg6.IsWhole)
    (x0 x1 x2 x3 : Vec F S1024x768 .f32) (w : Vec F S64x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w
            ∗ owns (c : Thread nD τ) arg6 fullShare (outBlock w x0 x1 x2 x3)) -∗ K ⟨⟩))
      ⊢ wp frame (wpE (defs₀ (F := F)) Variants.none c none) E (cc0__router_kernel i arg1 harg1 arg2 harg2 arg3 harg3 arg4 harg4 arg5 harg5 arg6 harg6) K := by
  simp only [cc0__router_kernel_eq_skeleton]; unfold cc0__router_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (bands_cover _ _ _ _)

end Cert.KernelIdeal.Body

end
-- ==== Proof.Run.lean ====
import proofs.«168203_g4501125726438_cont_8to1_c_902_3_alg».proof.Proof.Step

set_option maxRecDepth 16384

noncomputable section

/-! # The run of the whole grid

The program is one pipelined call over a grid of 8 steps.  Four of its windows look at ONE array, the
activations, each at its own quarter of the step's rows; a fifth holds the weight matrix, a sixth is the output.
The activations are only read, so the array's ownership is dealt to the four windows as four quarter shares,
and comes back whole at the end.  Every step's body is the triple of `Step`; what the body finds in an input
buffer is that window's block at the step, fetched there or carried over.  The conclusion names every array
after the run as the write-backs' overlay of the entry contents (`Dat.arrAt`). -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the call is entered, and the windows' blocks -/

/-- The buffers of core `c` when the call is entered: as launched (the program is the call alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at step `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds that block at every step, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- Per core: the arrays as the call finds them; after step `t` each input buffer at its block and the output buffer
    at `outBlock` of the five input blocks; between steps nothing but the core's other scoped buffers; the
    activations held at a quarter share by each of their four windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 4 t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 4 t) (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic step -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (step_triple c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## Dealing the activations to their four windows -/

/-- A buffer held whole is held at four quarter shares. -/
theorem quarters {ℓ : Loc nD τ sig} (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨HLL, HLR⟩
  icases HR with ⟨HRL, HRR⟩
  isplitl [HLL]; · iexact HLL
  isplitl [HLR]; · iexact HLR
  isplitl [HRL]; · iexact HRL
  iexact HRR

end Cert.KernelIdeal.Body

end
-- ==== Proof.Grid.lean ====
import proofs.«168203_g4501125726438_cont_8to1_c_902_3_alg».proof.Proof.Run

set_option maxRecDepth 16384

noncomputable section

/-! # Launching the grid

The call's three arrays — activations, weights, result — are all of the core's unscoped buffers.  Entering the
call, the activations' buffer is dealt in quarters to the four windows that read it, the other two go whole to
their windows; the launch theorem for windows that may share an array then runs the grid from the body
obligation, and gives every array back at the overlay of its write-backs. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows' arrays are the program's three arrays. -/
theorem arrRefs_eq : Finset.univ.image (Pipeline.arrRef spec0) = [main_arg0, main_arg1, main_v0].toFinset := by decide

/-- The distinct buffers behind the windows' arrays, each held whole: the three arrays one by one. -/
theorem arrBufs_eq (c : Dev nD) : (Pipeline.arrBufs spec0 c (V m c) : sProp 𝕄)
    = iprop(((c.tc : Thread nD τ).loc main_arg0 ↦{fullShare} V m c main_arg0) ∗ ((c.tc : Thread nD τ).loc main_arg1 ↦{fullShare} V m c main_arg1)
        ∗ ((c.tc : Thread nD τ).loc main_v0 ↦{fullShare} V m c main_v0)) := by
  unfold Pipeline.arrBufs
  exact bigSep_eq_bigSepL_of_eq [main_arg0, main_arg1, main_v0] arrRefs_eq (by decide) _

/-- The three arrays, each held whole, are the six windows' arrays at their shares: the activations in quarters. -/
theorem deal (c : Dev nD) :
    (Pipeline.arrBufs spec0 c (V m c) : sProp 𝕄) ⊢ (dats m 0 c).arrays ((dats m 0 c).arrAt · 0) := by
  rw [arrBufs_eq]
  unfold Dat.arrays
  rw [bigSep_W0]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  simp only [h0, h1, h2, h3, h4, h5]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl]
  iintro ⟨Hx, Hw, Ho⟩
  ihave Hx := (quarters (F := F) _) $$ Hx
  icases Hx with ⟨H0, H1, H2, H3⟩
  isplitl [H0]; · iexact H0
  isplitl [H1]; · iexact H1
  isplitl [H2]; · iexact H2
  isplitl [H3]; · iexact H3
  isplitl [Hw]; · iexact Hw
  iexact Ho

/-- Between steps the core holds nothing the steps name: its other scoped buffers. -/
theorem Φ_eq (c : Dev nD) (t : Fin (cfg0.N + 1)) :
    (dats m 0 c).Φ t = Pipeline.scopedRest (Ix := Unit) (Name := ℕ) (U := UR sig nD τ) (Lvl := ℕ) (Val := Elt F) spec0 c := rfl

set_option backward.isDefEq.respectTransparency.types false in
/-- From any memory with zero counters, every weakly fair execution of the program terminates, and in every final
    state each window's array holds the overlay of the write-backs on its entry contents. -/
theorem run_grid : θ_run defs (onTc (τ := τ) (main (F := F))) (s₀ m ρ)
    (fun r => ∀ c : Dev nD, ∀ w : Fin cfg0.W,
      r.2.mem ((spec0 w).arr.view.loc (c.tc : Thread nD τ)) = (dats m 0 c).arrAt w cfg0.N) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := deal m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Φ_eq]; iintro ⟨-, H⟩; iexact H)
    (hout := fun c => by rw [Φ_eq]; iintro H; isplitr; · iempintro
                         iexact H)
    (QY := fun _ _ => True)
    (hY := fun c s' => by iintro ⟨-, -, HSI⟩; imodintro; isplitr; · ipureintro; trivial
                          iexact HSI)
    (hQ := fun s h c w => (h c).1 w)

/-- The frame: the program runs to the end, nothing faults, and both argument arrays end as they began — an input
    window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (((dats m 0 c).arrAt_in 0 rfl _).trans (A_eq m c 0)),
      (h c 4).trans (((dats m 0 c).arrAt_in 4 rfl _).trans (A_eq m c 4))⟩) (run_grid m ρ)

end Cert.KernelIdeal.Body

end
-- ==== Proof.Spec.lean ====
import Idealize.ShloMosaic.PureOps.Ideal
import Idealize.ShloMosaic.Lib.ValueIdx

noncomputable section

open scoped BigOperators

/-! # The router's logits

The activations are a 32768 × 768 array `x` and the weights a 64 × 768 array `w`.  The logits are
`x · wᵀ`: entry `(r, e)` is the sum over the 768 features `k` of `x[r, k] · w[e, k]`, taken on the extended
reals.  Both programs are compared with this one function. -/

namespace Cert.Router

open Idealize.ShloMosaic Idealize.ShloMosaic.ValueIdx

/-- The 32768 × 768 activations' shape. -/
abbrev SX : Shape := ⟨2, ![32768, 768]⟩
/-- The 64 × 768 weights' shape. -/
abbrev SW : Shape := ⟨2, ![64, 768]⟩
/-- The 32768 × 64 logits' shape. -/
abbrev SL : Shape := ⟨2, ![32768, 64]⟩

/-- Entry `(r, e)` of `x · wᵀ`: the sum over the features `k` of `x[r, k] · w[e, k]`. -/
def logits (x : SX.Idx → EReal) (w : SW.Idx → EReal) : SL.Idx → EReal :=
  fun i => ∑ k : Fin 768, x (ix2 (n0 := 32768) (i 0) k) * w (ix2 (n0 := 64) (i 1) k)

/-- The logits at explicit coordinates. -/
theorem logits_apply (x : SX.Idx → EReal) (w : SW.Idx → EReal) (r : Fin 32768) (e : Fin 64) :
    logits x w (ix2 r e) = ∑ k : Fin 768, x (ix2 r k) * w (ix2 e k) := rfl

end Cert.Router

end
-- ==== Proof.OutBlockAt.lean ====
import proofs.«168203_g4501125726438_cont_8to1_c_902_3_alg».proof.Proof.OutBlock
import proofs.«168203_g4501125726438_cont_8to1_c_902_3_alg».proof.Proof.Spec
import Idealize.ShloMosaic.PureOps.Ideal.Laws
import Idealize.ShloMosaic.Lib.ValueIdx
import Idealize.ShloMosaic.Lib.Pipeline.Value

noncomputable section

open scoped BigOperators

/-! # The output block, entry by entry

One grid step's output block has 4096 rows in four bands of 1024.  Row `1024·s + r` of the block, column
`e`, holds entry `(r, e)` of the product of the step's `s`-th activation block with the transposed weights:
the sum over the 768 features `k` of `xₛ[r, k] · w[e, k]`.  Rounding the operands to a narrower format is
the identity on the extended reals, and the product accumulates into zero, so nothing but the sum is left. -/

namespace Cert.Router

open Idealize.ShloMosaic Idealize.ShloMosaic.ValueIdx Idealize.SL.Sem
open Cert.KernelIdeal Cert.KernelIdeal.Gen Cert.KernelIdeal.Body

/-! ## The product at an entry -/

/-- The left operand's row at output entry `(r, e)` is `r`. -/
theorem lhs_row (j : S1024x64.Idx) (q : dot_S1024x768_S64x768_S1024x64_1_1_0_0_n_n.contr.Idx) :
    (dot_S1024x768_S64x768_S1024x64_1_1_0_0_n_n.lhsIdx j q 0).val = (j 0).val := by
  unfold DotDims.lhsIdx
  rw [dif_neg (show ¬(0 : Fin S1024x768.rank) ∈ dot_S1024x768_S64x768_S1024x64_1_1_0_0_n_n.lhsBatch by decide),
    dif_pos (show (0 : Fin S1024x768.rank) ∈ dot_S1024x768_S64x768_S1024x64_1_1_0_0_n_n.lhsNonContracting by decide)]
  rfl

/-- The left operand's column is the contraction position. -/
theorem lhs_col (j : S1024x64.Idx) (q : dot_S1024x768_S64x768_S1024x64_1_1_0_0_n_n.contr.Idx) :
    (dot_S1024x768_S64x768_S1024x64_1_1_0_0_n_n.lhsIdx j q 1).val = (q ⟨0, by decide⟩).val :=
  dot_S1024x768_S64x768_S1024x64_1_1_0_0_n_n.lhsIdx_val_of_single rfl j q

/-- The right operand's row at output entry `(r, e)` is `e`. -/
theorem rhs_row (j : S1024x64.Idx) (q : dot_S1024x768_S64x768_S1024x64_1_1_0_0_n_n.contr.Idx) :
    (dot_S1024x768_S64x768_S1024x64_1_1_0_0_n_n.rhsIdx j q 0).val = (j 1).val := by
  unfold DotDims.rhsIdx
  rw [dif_neg (show ¬(0 : Fin S64x768.rank) ∈ dot_S1024x768_S64x768_S1024x64_1_1_0_0_n_n.rhsBatch by decide),
    dif_pos (show (0 : Fin S64x768.rank) ∈ dot_S1024x768_S64x768_S1024x64_1_1_0_0_n_n.rhsNonContracting by decide)]
  rfl

/-- The right operand's column is the contraction position. -/
theorem rhs_col (j : S1024x64.Idx) (q : dot_S1024x768_S64x768_S1024x64_1_1_0_0_n_n.contr.Idx) :
    (dot_S1024x768_S64x768_S1024x64_1_1_0_0_n_n.rhsIdx j q 1).val = (q ⟨0, by decide⟩).val :=
  dot_S1024x768_S64x768_S1024x64_1_1_0_0_n_n.rhsIdx_val_of_single rfl j q

/-- The product of a 1024 × 768 block with the transposed 64 × 768 weights, accumulated into zero, at entry
    `(r, e)`: the sum over the features of the block's row `r` times the weights' row `e`. -/
theorem product_apply (a : FVec Ideal S1024x768 .bf16) (b : FVec Ideal S64x768 .bf16) (r : Fin 1024) (e : Fin 64) :
    matmul dot_S1024x768_S64x768_S1024x64_1_1_0_0_n_n none a b (constant (F := Ideal) S1024x64 .f32 0x00000000#32) (ix2 r e)
      = ∑ k : Fin 768, a (ix2 r k) * b (ix2 e k) := by
  simp only [matmul]
  rw [Ideal.matmul_constant_zero_apply,
    ← Equiv.sum_comp (contrEquiv1 dot_S1024x768_S64x768_S1024x64_1_1_0_0_n_n 768 rfl rfl).symm]
  refine Finset.sum_congr rfl fun k _ => ?_
  have hk := contrEquiv1_symm_val dot_S1024x768_S64x768_S1024x64_1_1_0_0_n_n 768 rfl rfl k
  have el : dot_S1024x768_S64x768_S1024x64_1_1_0_0_n_n.lhsIdx (ix2 r e)
      ((contrEquiv1 dot_S1024x768_S64x768_S1024x64_1_1_0_0_n_n 768 rfl rfl).symm k) = ix2 r k :=
    funext fun c => Fin.ext (by
      match c with
      | ⟨0, _⟩ => exact lhs_row _ _
      | ⟨1, _⟩ => exact (lhs_col _ _).trans hk)
  have er : dot_S1024x768_S64x768_S1024x64_1_1_0_0_n_n.rhsIdx (ix2 r e)
      ((contrEquiv1 dot_S1024x768_S64x768_S1024x64_1_1_0_0_n_n 768 rfl rfl).symm k) = ix2 e k :=
    funext fun c => Fin.ext (by
      match c with
      | ⟨0, _⟩ => exact rhs_row _ _
      | ⟨1, _⟩ => exact (rhs_col _ _).trans hk)
  rw [el, er]

/-! ## Whole-buffer reads -/

/-- Reading the whole activation block reads it. -/
theorem ld_rX (x : Vec Ideal S1024x768 .f32) (r : Fin 1024) (k : Fin 768) :
    View.ld x rX (ix2 r k) = x (ix2 r k) := by
  show x (rX.idx (ix2 r k)) = x (ix2 r k)
  refine congrArg x (funext fun c => Fin.ext ?_)
  match c with
  | ⟨0, _⟩ => show 0 + 1 * r.val = r.val; omega
  | ⟨1, _⟩ => show 0 + 1 * k.val = k.val; omega

/-- Reading the whole weight matrix reads it. -/
theorem ld_rW (w : Vec Ideal S64x768 .f32) (e : Fin 64) (k : Fin 768) :
    View.ld w rW (ix2 e k) = w (ix2 e k) := by
  show w (rW.idx (ix2 e k)) = w (ix2 e k)
  refine congrArg w (funext fun c => Fin.ext ?_)
  match c with
  | ⟨0, _⟩ => show 0 + 1 * e.val = e.val; omega
  | ⟨1, _⟩ => show 0 + 1 * k.val = k.val; omega

/-! ## The four stored values at an entry -/

/-- The value stored into rows 0 … 1023, at entry `(r, e)`. -/
theorem pay2_apply (w : Vec Ideal S64x768 .f32) (x : Vec Ideal S1024x768 .f32) (r : Fin 1024) (e : Fin 64) :
    k0_pay2 (F := Ideal) (View.ld w rW) (View.ld x rX) (ix2 r e) = ∑ k : Fin 768, x (ix2 r k) * w (ix2 e k) := by
  unfold k0_pay2 k0_pay1
  refine (product_apply _ _ r e).trans (Finset.sum_congr rfl fun k _ => ?_)
  rw [truncf_apply, truncf_apply, ld_rX, ld_rW]

/-- The value stored into rows 1024 … 2047, at entry `(r, e)`. -/
theorem pay3_apply (w : Vec Ideal S64x768 .f32) (x : Vec Ideal S1024x768 .f32) (r : Fin 1024) (e : Fin 64) :
    k0_pay3 (F := Ideal) (View.ld w rW) (View.ld x rX) (ix2 r e) = ∑ k : Fin 768, x (ix2 r k) * w (ix2 e k) := by
  unfold k0_pay3 k0_pay1
  refine (product_apply _ _ r e).trans (Finset.sum_congr rfl fun k _ => ?_)
  rw [truncf_apply, truncf_apply, ld_rX, ld_rW]

/-- The value stored into rows 2048 … 3071, at entry `(r, e)`. -/
theorem pay4_apply (w : Vec Ideal S64x768 .f32) (x : Vec Ideal S1024x768 .f32) (r : Fin 1024) (e : Fin 64) :
    k0_pay4 (F := Ideal) (View.ld w rW) (View.ld x rX) (ix2 r e) = ∑ k : Fin 768, x (ix2 r k) * w (ix2 e k) := by
  unfold k0_pay4 k0_pay1
  refine (product_apply _ _ r e).trans (Finset.sum_congr rfl fun k _ => ?_)
  rw [truncf_apply, truncf_apply, ld_rX, ld_rW]

/-- The value stored into rows 3072 … 4095, at entry `(r, e)`. -/
theorem pay5_apply (w : Vec Ideal S64x768 .f32) (x : Vec Ideal S1024x768 .f32) (r : Fin 1024) (e : Fin 64) :
    k0_pay5 (F := Ideal) (View.ld w rW) (View.ld x rX) (ix2 r e) = ∑ k : Fin 768, x (ix2 r k) * w (ix2 e k) := by
  unfold k0_pay5 k0_pay1
  refine (product_apply _ _ r e).trans (Finset.sum_congr rfl fun k _ => ?_)
  rw [truncf_apply, truncf_apply, ld_rX, ld_rW]

/-! ## The bands -/

/-- Row `off + r` of the output block, column `e`, is entry `(r, e)` of the band that starts at row `off`. -/
theorem band_emb (off : Nat) (inb : ∀ a, (![off, 0] : Fin 2 → Nat) a + S1024x64.size a ≤ S4096x64.size a)
    (r : Fin 1024) (e : Fin 64) (h : off + r.val < 4096) :
    (ix2 (⟨off + r.val, h⟩ : Fin 4096) e : S4096x64.Idx)
      = (Rect.unit (s := S4096x64) ![off, 0] S1024x64.size inb).emb (ix2 r e) :=
  funext fun c => Fin.ext (by
    match c with
    | ⟨0, _⟩ => show off + r.val = off + 1 * r.val; omega
    | ⟨1, _⟩ => show e.val = 0 + 1 * e.val; omega)

/-- A row outside a band is not in the band's rectangle. -/
theorem not_mem_band (off : Nat) (inb : ∀ a, (![off, 0] : Fin 2 → Nat) a + S1024x64.size a ≤ S4096x64.size a)
    (j : S4096x64.Idx) (h : (j 0).val < off ∨ off + 1024 ≤ (j 0).val) :
    j ∉ (Rect.unit (s := S4096x64) ![off, 0] S1024x64.size inb).set := by
  rw [Rect.mem_set_unit]
  intro hm
  have h0 := hm 0
  have h1 : off ≤ (j 0).val ∧ (j 0).val < off + 1024 := h0
  omega

/-- An entry whose row is outside a band reads what the earlier stores left: the band's store does not reach it. -/
theorem canon_skip (off : Nat) (inb : ∀ a, (![off, 0] : Fin 2 → Nat) a + S1024x64.size a ≤ S4096x64.size a)
    (pay : (Rect.unit (s := S4096x64) ![off, 0] S1024x64.size inb).shape.Idx → Elt Ideal .f32)
    (L : List (View.Piece (Elt Ideal) S4096x64 .f32)) (i : Fin 4096) (e : Fin 64)
    (h : i.val < off ∨ off + 1024 ≤ i.val) :
    View.canon (⟨Rect.unit (s := S4096x64) ![off, 0] S1024x64.size inb, pay⟩ :: L) (ix2 i e : S4096x64.Idx)
      = View.canon L (ix2 i e : S4096x64.Idx) :=
  View.canon_cons_of_not_mem (⟨Rect.unit (s := S4096x64) ![off, 0] S1024x64.size inb, pay⟩ : View.Piece (Elt Ideal) S4096x64 .f32) L
    (y := (ix2 i e : S4096x64.Idx)) (not_mem_band off inb (ix2 i e) h)

/-- An entry of a band reads the band's store, when that store is the latest one left. -/
theorem canon_hit (off : Nat) (inb : ∀ a, (![off, 0] : Fin 2 → Nat) a + S1024x64.size a ≤ S4096x64.size a)
    (pay : (Rect.unit (s := S4096x64) ![off, 0] S1024x64.size inb).shape.Idx → Elt Ideal .f32)
    (L : List (View.Piece (Elt Ideal) S4096x64 .f32)) (r : Fin 1024) (e : Fin 64) (h : off + r.val < 4096) :
    View.canon (⟨Rect.unit (s := S4096x64) ![off, 0] S1024x64.size inb, pay⟩ :: L) (ix2 (⟨off + r.val, h⟩ : Fin 4096) e : S4096x64.Idx)
      = pay (ix2 r e) := by
  rw [band_emb off inb r e h]
  exact View.canon_cons_emb (Rect.unit (s := S4096x64) ![off, 0] S1024x64.size inb) pay L (ix2 r e)

/-- Rows 3072 … 4095 of the output block hold the fourth activation block's product. -/
theorem outBlock_band3 (w : Vec Ideal S64x768 .f32) (x0 x1 x2 x3 : Vec Ideal S1024x768 .f32) (r : Fin 1024) (e : Fin 64) :
    outBlock (F := Ideal) w x0 x1 x2 x3 (ix2 (⟨3072 + r.val, by omega⟩ : Fin 4096) e)
      = ∑ k : Fin 768, x3 (ix2 r k) * w (ix2 e k) := by
  unfold outBlock
  exact (canon_hit 3072 inb_S4096x64_S1024x64_3072_0 _ _ r e (by omega)).trans (pay5_apply w x3 r e)

/-- Rows 2048 … 3071 of the output block hold the third activation block's product. -/
theorem outBlock_band2 (w : Vec Ideal S64x768 .f32) (x0 x1 x2 x3 : Vec Ideal S1024x768 .f32) (r : Fin 1024) (e : Fin 64) :
    outBlock (F := Ideal) w x0 x1 x2 x3 (ix2 (⟨2048 + r.val, by omega⟩ : Fin 4096) e)
      = ∑ k : Fin 768, x2 (ix2 r k) * w (ix2 e k) := by
  have h3 : (⟨2048 + r.val, by omega⟩ : Fin 4096).val < 3072 ∨ 3072 + 1024 ≤ (⟨2048 + r.val, by omega⟩ : Fin 4096).val :=
    Or.inl (by show 2048 + r.val < 3072; omega)
  unfold outBlock
  exact (canon_skip 3072 inb_S4096x64_S1024x64_3072_0 _ _ _ e h3).trans
    ((canon_hit 2048 inb_S4096x64_S1024x64_2048_0 _ _ r e (by omega)).trans (pay4_apply w x2 r e))

/-- Rows 1024 … 2047 of the output block hold the second activation block's product. -/
theorem outBlock_band1 (w : Vec Ideal S64x768 .f32) (x0 x1 x2 x3 : Vec Ideal S1024x768 .f32) (r : Fin 1024) (e : Fin 64) :
    outBlock (F := Ideal) w x0 x1 x2 x3 (ix2 (⟨1024 + r.val, by omega⟩ : Fin 4096) e)
      = ∑ k : Fin 768, x1 (ix2 r k) * w (ix2 e k) := by
  have h3 : (⟨1024 + r.val, by omega⟩ : Fin 4096).val < 3072 ∨ 3072 + 1024 ≤ (⟨1024 + r.val, by omega⟩ : Fin 4096).val :=
    Or.inl (by show 1024 + r.val < 3072; omega)
  have h2 : (⟨1024 + r.val, by omega⟩ : Fin 4096).val < 2048 ∨ 2048 + 1024 ≤ (⟨1024 + r.val, by omega⟩ : Fin 4096).val :=
    Or.inl (by show 1024 + r.val < 2048; omega)
  unfold outBlock
  exact (canon_skip 3072 inb_S4096x64_S1024x64_3072_0 _ _ _ e h3).trans
    ((canon_skip 2048 inb_S4096x64_S1024x64_2048_0 _ _ _ e h2).trans
      ((canon_hit 1024 inb_S4096x64_S1024x64_1024_0 _ _ r e (by omega)).trans (pay3_apply w x1 r e)))

/-- Rows 0 … 1023 of the output block hold the first activation block's product. -/
theorem outBlock_band0 (w : Vec Ideal S64x768 .f32) (x0 x1 x2 x3 : Vec Ideal S1024x768 .f32) (r : Fin 1024) (e : Fin 64) :
    outBlock (F := Ideal) w x0 x1 x2 x3 (ix2 (⟨0 + r.val, by omega⟩ : Fin 4096) e)
      = ∑ k : Fin 768, x0 (ix2 r k) * w (ix2 e k) := by
  have h3 : (⟨0 + r.val, by omega⟩ : Fin 4096).val < 3072 ∨ 3072 + 1024 ≤ (⟨0 + r.val, by omega⟩ : Fin 4096).val :=
    Or.inl (by show 0 + r.val < 3072; omega)
  have h2 : (⟨0 + r.val, by omega⟩ : Fin 4096).val < 2048 ∨ 2048 + 1024 ≤ (⟨0 + r.val, by omega⟩ : Fin 4096).val :=
    Or.inl (by show 0 + r.val < 2048; omega)
  have h1 : (⟨0 + r.val, by omega⟩ : Fin 4096).val < 1024 ∨ 1024 + 1024 ≤ (⟨0 + r.val, by omega⟩ : Fin 4096).val :=
    Or.inl (by show 0 + r.val < 1024; omega)
  unfold outBlock
  exact (canon_skip 3072 inb_S4096x64_S1024x64_3072_0 _ _ _ e h3).trans
    ((canon_skip 2048 inb_S4096x64_S1024x64_2048_0 _ _ _ e h2).trans
      ((canon_skip 1024 inb_S4096x64_S1024x64_1024_0 _ _ _ e h1).trans
        ((canon_hit 0 inb_S4096x64_S1024x64_0_0 _ _ r e (by omega)).trans (pay2_apply w x0 r e))))

end Cert.Router

end
-- ==== Proof.Final.lean ====
import proofs.«168203_g4501125726438_cont_8to1_c_902_3_alg».proof.Proof.Grid
import proofs.«168203_g4501125726438_cont_8to1_c_902_3_alg».proof.Proof.OutBlockAt
import Idealize.ShloMosaic.Lib.Pipeline.Value

set_option maxRecDepth 16384

noncomputable section

open scoped BigOperators

/-! # From the steps' blocks to the whole result

Step `t` reads rows `4096·t … 4096·t + 4095` of the activations, as four blocks of 1024 rows, and writes back
rows `4096·t … 4096·t + 4095` of the result.  Row `1024·s + r` of its output block is the product of row `r` of
the `s`-th activation block — row `4096·t + 1024·s + r` of the activations — with the transposed weights: the
logits' row of the same number.  So each step writes back its block of the logits, the eight blocks fill the
result, and the result after the run is the logits of the argument arrays. -/

namespace Cert.KernelIdeal.Body

open Idealize.ShloMosaic Idealize.ShloMosaic.TcCoe
open Idealize.SL Idealize.SL.Sem
open Idealize.ShloMosaic.Pipeline (Dat Cfg Window)
open Cert.KernelIdeal Cert.KernelIdeal.Gen

/-- Where the windows' blocks sit at step `t`: the four activation windows at the consecutive row blocks
    `4t, 4t+1, 4t+2, 4t+3`, the weights at their one block, the output at row block `t`; every column block is 0. -/
theorem block_index : ∀ t : Fin cfg0.N,
    win0_0.index t (0 : Fin 2) = 4 * t.val + 0 ∧ win0_0.index t (1 : Fin 2) = 0
    ∧ win0_1.index t (0 : Fin 2) = 4 * t.val + 1 ∧ win0_1.index t (1 : Fin 2) = 0
    ∧ win0_2.index t (0 : Fin 2) = 4 * t.val + 2 ∧ win0_2.index t (1 : Fin 2) = 0
    ∧ win0_3.index t (0 : Fin 2) = 4 * t.val + 3 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- An index of the result lies in step `t`'s output block iff each coordinate lies in the block's range. -/
theorem mem_out_block (t : Fin cfg0.N) (i : S32768x64.Idx) :
    i ∈ ((cfg0.win 5).blk t).view.set ↔ ∀ a : Fin 2, win0_5.index t a * S4096x64.size a ≤ (i a).val
      ∧ (i a).val < win0_5.index t a * S4096x64.size a + S4096x64.size a := by
  show i ∈ ((View.whole main_v0).slice (win0_5.rect t)).set ↔ _
  rw [View.set_slice_whole, Rect.mem_set_unit]
  exact Iff.rfl

/-- The eight output blocks fill the result: row `r` is written back at step `r / 4096`. -/
theorem out_blocks_cover (i : S32768x64.Idx) :
    ∃ t : Fin cfg0.N, (cfg0.win 5).flush t = true ∧ i ∈ ((cfg0.win 5).blk t).view.set := by
  have hi0 : (i 0).val < 32768 := (i 0).isLt
  have hi1 : (i 1).val < 64 := (i 1).isLt
  have hN : cfg0.N = 8 := N_0
  refine ⟨⟨(i 0).val / 4096, by rw [hN]; omega⟩, flush0_5 _, ?_⟩
  rw [mem_out_block]
  obtain ⟨-, -, -, -, -, -, -, -, -, -, e0, e1⟩ := block_index ⟨(i 0).val / 4096, by rw [hN]; omega⟩
  intro a
  match a with
  | ⟨0, _⟩ =>
    show win0_5.index _ (0 : Fin 2) * 4096 ≤ (i 0).val ∧ (i 0).val < win0_5.index _ (0 : Fin 2) * 4096 + 4096
    rw [e0]; show (i 0).val / 4096 * 4096 ≤ (i 0).val ∧ (i 0).val < (i 0).val / 4096 * 4096 + 4096; omega
  | ⟨1, _⟩ =>
    show win0_5.index _ (1 : Fin 2) * 64 ≤ (i 1).val ∧ (i 1).val < win0_5.index _ (1 : Fin 2) * 64 + 64
    rw [e1]; omega

open Idealize.ShloMosaic.ValueIdx Cert.Router

/-- A row of a 1024-row band that starts at row `off ≤ 3072` is a row of the 4096-row block. -/
theorem band_row_lt (off : Nat) (h : off + 1024 ≤ 4096) (r : Fin 1024) : off + r.val < 4096 := by
  have := r.isLt; omega

/-- One step's output block is its block of the logits, entry by entry: if the step's four activation blocks are
    rows `(4·tv + s)·1024 + r` of `xs` and its weights are `ws`, then entry `(ρ, e)` of the output block is entry
    `(4096·tv + ρ, e)` of `logits xs ws`. -/
theorem block_entry (xs : SX.Idx → EReal) (ws : SW.Idx → EReal) (tv : Nat)
    (x0 x1 x2 x3 : Vec Ideal S1024x768 .f32) (w : Vec Ideal S64x768 .f32)
    (h0 : ∀ (r : Fin 1024) (k : Fin 768) (R : Fin 32768), R.val = (4 * tv + 0) * 1024 + r.val → x0 (ix2 r k) = xs (ix2 R k))
    (h1 : ∀ (r : Fin 1024) (k : Fin 768) (R : Fin 32768), R.val = (4 * tv + 1) * 1024 + r.val → x1 (ix2 r k) = xs (ix2 R k))
    (h2 : ∀ (r : Fin 1024) (k : Fin 768) (R : Fin 32768), R.val = (4 * tv + 2) * 1024 + r.val → x2 (ix2 r k) = xs (ix2 R k))
    (h3 : ∀ (r : Fin 1024) (k : Fin 768) (R : Fin 32768), R.val = (4 * tv + 3) * 1024 + r.val → x3 (ix2 r k) = xs (ix2 R k))
    (hw : ∀ (e : Fin 64) (k : Fin 768), w (ix2 e k) = ws (ix2 e k))
    (ρ : Fin 4096) (e : Fin 64) (R : Fin 32768) (hR : R.val = tv * 4096 + ρ.val) :
    outBlock (F := Ideal) w x0 x1 x2 x3 (ix2 ρ e) = logits xs ws (ix2 R e) := by
  rw [logits_apply]
  rcases Nat.lt_or_ge ρ.val 1024 with b1 | b1
  · obtain ⟨r, rfl⟩ : ∃ r : Fin 1024, ρ = (⟨0 + r.val, band_row_lt 0 (by decide) r⟩ : Fin 4096) :=
      ⟨⟨ρ.val, b1⟩, Fin.ext (by show ρ.val = 0 + ρ.val; omega)⟩
    rw [outBlock_band0]
    refine Finset.sum_congr rfl fun k _ => ?_
    rw [h0 r k R (by rw [hR]; show tv * 4096 + (0 + r.val) = _; omega), hw]
  rcases Nat.lt_or_ge ρ.val 2048 with b2 | b2
  · obtain ⟨r, rfl⟩ : ∃ r : Fin 1024, ρ = (⟨1024 + r.val, band_row_lt 1024 (by decide) r⟩ : Fin 4096) :=
      ⟨⟨ρ.val - 1024, by omega⟩, Fin.ext (by show ρ.val = 1024 + (ρ.val - 1024); omega)⟩
    rw [outBlock_band1]
    refine Finset.sum_congr rfl fun k _ => ?_
    rw [h1 r k R (by rw [hR]; show tv * 4096 + (1024 + r.val) = _; omega), hw]
  rcases Nat.lt_or_ge ρ.val 3072 with b3 | b3
  · obtain ⟨r, rfl⟩ : ∃ r : Fin 1024, ρ = (⟨2048 + r.val, band_row_lt 2048 (by decide) r⟩ : Fin 4096) :=
      ⟨⟨ρ.val - 2048, by omega⟩, Fin.ext (by show ρ.val = 2048 + (ρ.val - 2048); omega)⟩
    rw [outBlock_band2]
    refine Finset.sum_congr rfl fun k _ => ?_
    rw [h2 r k R (by rw [hR]; show tv * 4096 + (2048 + r.val) = _; omega), hw]
  · obtain ⟨r, rfl⟩ : ∃ r : Fin 1024, ρ = (⟨3072 + r.val, band_row_lt 3072 (by decide) r⟩ : Fin 4096) :=
      ⟨⟨ρ.val - 3072, by have := ρ.isLt; omega⟩, Fin.ext (by show ρ.val = 3072 + (ρ.val - 3072); omega)⟩
    rw [outBlock_band3]
    refine Finset.sum_congr rfl fun k _ => ?_
    rw [h3 r k R (by rw [hR]; show tv * 4096 + (3072 + r.val) = _; omega), hw]

variable (m : (ℓ : Loc nD τ sig) → Buf (Elt Ideal) ℓ) (ρ : Dev nD → PrngReg)

/-- WHAT STEP `t` WRITES BACK is block `t` of the logits of the argument arrays. -/
theorem flushed_eq (c : Dev nD) (t : Fin cfg0.N) :
    (dats (F := Ideal) m 0 c).flushed 5 t
      = ((cfg0.win 5).blk t).view.read (Elt Ideal) (logits (V m c main_arg0) (V m c main_arg1)) := by
  show (cfg0.win 5).cut (grid0.coords t) ((dats m 0 c).after 5 t) = _
  rw [after5]
  obtain ⟨a0, a0', a1, a1', a2, a2', a3, a3', a4, a4', a5, a5'⟩ := block_index t
  funext j
  obtain ⟨p, e, rfl⟩ : ∃ (p : Fin 4096) (e : Fin 64), j = ix2 p e := ⟨j 0, j 1, eq_ix2 j⟩
  have ht : t.val < 8 := by have h := t.isLt; have hN : cfg0.N = 8 := N_0; omega
  show outBlock (F := Ideal) (iblk m c 4 t) (iblk m c 0 t) (iblk m c 1 t) (iblk m c 2 t) (iblk m c 3 t) (ix2 p e)
    = logits (V m c main_arg0) (V m c main_arg1) (((cfg0.win 5).blk t).view.emb (ix2 p e))
  have hemb : ((cfg0.win 5).blk t).view.emb (ix2 p e) = (ix2 (⟨t.val * 4096 + p.val, by omega⟩ : Fin 32768) e : SL.Idx) := by
    funext a; apply Fin.ext
    match a with
    | ⟨0, _⟩ => show win0_5.index t (0 : Fin 2) * 4096 + 1 * p.val = t.val * 4096 + p.val; rw [a5]; omega
    | ⟨1, _⟩ => show win0_5.index t (1 : Fin 2) * 64 + 1 * e.val = e.val; rw [a5']; omega
  rw [hemb]
  refine block_entry (V m c main_arg0) (V m c main_arg1) t.val _ _ _ _ _ ?_ ?_ ?_ ?_ ?_ p e _ rfl
  · intro r k R hR
    show V m c main_arg0 (((cfg0.win 0).blk t).view.emb (ix2 r k)) = V m c main_arg0 (ix2 R k)
    refine congrArg _ (funext fun a => Fin.ext ?_)
    match a with
    | ⟨0, _⟩ => show win0_0.index t (0 : Fin 2) * 1024 + 1 * r.val = R.val; rw [a0, hR]; omega
    | ⟨1, _⟩ => show win0_0.index t (1 : Fin 2) * 768 + 1 * k.val = k.val; rw [a0']; omega
  · intro r k R hR
    show V m c main_arg0 (((cfg0.win 1).blk t).view.emb (ix2 r k)) = V m c main_arg0 (ix2 R k)
    refine congrArg _ (funext fun a => Fin.ext ?_)
    match a with
    | ⟨0, _⟩ => show win0_1.index t (0 : Fin 2) * 1024 + 1 * r.val = R.val; rw [a1, hR]; omega
    | ⟨1, _⟩ => show win0_1.index t (1 : Fin 2) * 768 + 1 * k.val = k.val; rw [a1']; omega
  · intro r k R hR
    show V m c main_arg0 (((cfg0.win 2).blk t).view.emb (ix2 r k)) = V m c main_arg0 (ix2 R k)
    refine congrArg _ (funext fun a => Fin.ext ?_)
    match a with
    | ⟨0, _⟩ => show win0_2.index t (0 : Fin 2) * 1024 + 1 * r.val = R.val; rw [a2, hR]; omega
    | ⟨1, _⟩ => show win0_2.index t (1 : Fin 2) * 768 + 1 * k.val = k.val; rw [a2']; omega
  · intro r k R hR
    show V m c main_arg0 (((cfg0.win 3).blk t).view.emb (ix2 r k)) = V m c main_arg0 (ix2 R k)
    refine congrArg _ (funext fun a => Fin.ext ?_)
    match a with
    | ⟨0, _⟩ => show win0_3.index t (0 : Fin 2) * 1024 + 1 * r.val = R.val; rw [a3, hR]; omega
    | ⟨1, _⟩ => show win0_3.index t (1 : Fin 2) * 768 + 1 * k.val = k.val; rw [a3']; omega
  · intro e k
    show V m c main_arg1 (((cfg0.win 4).blk t).view.emb (ix2 e k)) = V m c main_arg1 (ix2 e k)
    refine congrArg _ (funext fun a => Fin.ext ?_)
    match a with
    | ⟨0, _⟩ => show win0_4.index t (0 : Fin 2) * 64 + 1 * e.val = e.val; rw [a4]; omega
    | ⟨1, _⟩ => show win0_4.index t (1 : Fin 2) * 768 + 1 * k.val = k.val; rw [a4']; omega

/-- THE RESULT after the run: the logits of the argument arrays. -/
theorem result_eq (c : Dev nD) :
    (dats (F := Ideal) m 0 c).arrAt 5 cfg0.N = logits (V m c main_arg0) (V m c main_arg1) :=
  (dats (F := Ideal) m 0 c).arrAt_eq_of_cover 5 (logits (V m c main_arg0) (V m c main_arg1))
    (fun t _ => flushed_eq m c t) out_blocks_cover

/-- The run, read: every weakly fair execution ends with the result array at the logits of the argument arrays
    and the argument arrays unchanged. -/
theorem run : θ_run defs (onTc (τ := τ) (main (F := Ideal))) ⟨m, fun _ => 0, ρ⟩ fun r => ∀ c : Dev nD,
      r.2.mem ((c.tc : Thread nD τ).loc main_v0)
        = logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c 5).trans (result_eq m c),
      (h c 0).trans (((dats m 0 c).arrAt_in 0 rfl _).trans (A_eq m c 0)),
      (h c 4).trans (((dats m 0 c).arrAt_in 4 rfl _).trans (A_eq m c 4))⟩) (run_grid m ρ)

end Cert.KernelIdeal.Body

end
-- ==== Proof.RefIsSpec.lean ====
import proofs.«168203_g4501125726438_cont_8to1_c_902_3_alg».proof.Proof.Gen.ReferenceIdeal.Read
import proofs.«168203_g4501125726438_cont_8to1_c_902_3_alg».proof.Proof.Spec

noncomputable section

open scoped BigOperators

/-! # The reference computes the logits

The reference transposes the weights to 768 × 64 and contracts the activations' axis 1 with the transposed
weights' axis 0.  Entry `(r, e)` of the result is the sum over `k` of `x[r, k]` times the transposed weights
at `(k, e)`, which is `w[e, k]`: the logits. -/

namespace Cert.Router

open Idealize.ShloMosaic Idealize.ShloMosaic.ValueIdx
open Cert.ReferenceIdeal Cert.ReferenceIdeal.Gen Cert.ReferenceIdeal.Read

/-- The left operand's index at output index `i` and feature `k` is `(i 0, k)`. -/
theorem lidx_eq (i : S32768x64.Idx) (k : Fin 768) :
    lidx_main_v1 i k = ix2 (n0 := 32768) (i 0) k :=
  funext fun a => Fin.ext (by match a with | ⟨0, _⟩ => rfl | ⟨1, _⟩ => rfl)

/-- The transposed weights at `(k, i 1)` are the weights at `(i 1, k)`. -/
theorem ridx_eq (i : S32768x64.Idx) (k : Fin 768) :
    idx_main_v0 (ridx_main_v1 i k) = ix2 (n0 := 64) (i 1) k :=
  funext fun a => Fin.ext (by match a with | ⟨0, _⟩ => rfl | ⟨1, _⟩ => rfl)

/-- The reference's result is the logits of its two arguments. -/
theorem reference_eq_logits (x0 : (⟨S32768x768, .f32⟩ : BufTy).Contents (Elt Ideal))
    (x1 : (⟨S64x768, .f32⟩ : BufTy).Contents (Elt Ideal)) :
    val_main_v1 (F := Ideal) x0 x1 = logits x0 x1 := by
  funext i
  rw [val_main_v1_apply]
  unfold logits
  refine Finset.sum_congr rfl fun k _ => ?_
  rw [val_main_v0_apply, lidx_eq, ridx_eq]

end Cert.Router

end
-- ==== Proof.lean ====
/-
  The router's logits, `x · wᵀ` for activations `x : f32[32768, 768]` and weights `w : f32[64, 768]`.

  The kernel walks the rows of `x` in 8 steps of 4096 rows.  A step sees its rows as four blocks of 1024 — four
  windows onto the one activations array — casts each block and the weights to a narrower float format, and
  stores each block's product with the transposed weights into the matching quarter of the step's 4096 × 64
  output block.  The reference transposes the weights and takes one whole matrix product.

  On the extended reals a change of float format is the identity and a matrix product accumulated into zero is a
  plain sum, so both programs leave, at entry `(r, e)` of the result, the sum over the 768 features `k` of
  `x[r, k] · w[e, k]` (`Cert.Router.logits`): one and the same finite sum on both sides, so no algebraic law and no
  finiteness of the inputs is used.  The kernel side: each step's output block is its block of the logits
  (`Body.block_entry`), the eight output blocks fill the result, so the result after the run is the logits
  (`Body.run`).  The reference side: its run read back one operation at a time is the same sum
  (`Cert.Router.reference_eq_logits`).

  That the kernel runs to the end without a fault and leaves its arguments alone is proved from one triple for a
  step's body and the pipeline's launch rule for windows that share an array: the activations are only read, so
  their buffer is dealt to the four windows as four quarter shares (`Body.deal`, `Body.run_grid`).  The same text
  proves it for the word-level program.  The idealization rewrote nothing, so nothing is owed for it.
-/
import proofs.«168203_g4501125726438_cont_8to1_c_902_3_alg».proof.Defs
import proofs.«168203_g4501125726438_cont_8to1_c_902_3_alg».proof.Proof.Gen.Kernel
import proofs.«168203_g4501125726438_cont_8to1_c_902_3_alg».proof.Proof.Gen.KernelIdeal
import proofs.«168203_g4501125726438_cont_8to1_c_902_3_alg».proof.Proof.Gen.ReferenceIdeal
import proofs.«168203_g4501125726438_cont_8to1_c_902_3_alg».proof.Proof.Gen.Pre_finite_inputs
import proofs.«168203_g4501125726438_cont_8to1_c_902_3_alg».proof.Proof.GridBits
import proofs.«168203_g4501125726438_cont_8to1_c_902_3_alg».proof.Proof.Final
import proofs.«168203_g4501125726438_cont_8to1_c_902_3_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves both arguments unchanged. -/
theorem frame_kernel : Cert.frame_Kernel := fun m ρ _ => Cert.Kernel.Body.frame (F := Bits) m ρ

/-- So does the kernel read on the extended reals. -/
theorem frame_kernelIdeal : Cert.frame_KernelIdeal := fun m ρ _ => Cert.KernelIdeal.Body.frame (F := Ideal) m ρ

/-- The reference is a straight line of two host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `x` and `w`, both programs end with the result at `logits x w`. -/
theorem algebraic : Cert.algebraic_KernelIdeal_ReferenceIdeal := by
  intro m ρ m' ρ' _ hagree
  refine ⟨fun c => Cert.Router.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Body.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.Router.reference_eq_logits, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
